-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S64x256x4096 : S_.BroadcastsInDim S64x256x4096 (![] : Fin 0 → Fin S64x256x4096.rank)
  reducesTo_S64x256x4096_S_d0_1_2 : S64x256x4096.ReducesTo [0, 1, 2] S_
  bcast_S_S64x256x512 : S_.BroadcastsInDim S64x256x512 (![] : Fin 0 → Fin S64x256x512.rank)
  reducesTo_S64x256x512_S_d0_1_2 : S64x256x512.ReducesTo [0, 1, 2] S_
  bcast_S_S64x512 : S_.BroadcastsInDim S64x512 (![] : Fin 0 → Fin S64x512.rank)
  reducesTo_S64x512_S_d0_1 : S64x512.ReducesTo [0, 1] S_
  bcast_S_S64x512x64 : S_.BroadcastsInDim S64x512x64 (![] : Fin 0 → Fin S64x512x64.rank)
  reducesTo_S64x512x64_S_d0_1_2 : S64x512x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x512x64 .f32) (main_arg5 : FVec F S64x64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64x512x64 .f32 := Host.absf main_arg4
  let main_cst_6 : FVec F S_ .f32 := constant S_ .f32 0x7F800000#32
  let main_v20 : FVec F S64x512x64 .f32 := broadcastInDim S64x512x64 ![] bcast_S_S64x512x64 main_cst_6
  let main_v21 : IVec S64x512x64 1 := cmpf .olt main_v19 main_v20
  let main_c_7 : IVec S_ 1 := constantI S_ 1 1#1
  let main_v22 : IVec S_ 1 := (fun x v => Host.reduce IntOp.andi x v reducesTo_S64x512x64_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S64x256x256 .f32) (main_arg1 : FVec F S64x256x4096 .f32) (main_arg2 : FVec F S64x256x512 .f32) (main_arg3 : FVec F S64x512 .f32) (main_arg4 : FVec F S64x512x64 .f32) (main_arg5 : FVec F S64x64 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S64x256x4096 .f32 := Host.absf main_arg1
  let main_cst_0 : FVec F S_ .f32 := constant S_ .f32 0x7F800000#32
  let main_v5 : FVec F S64x256x4096 .f32 := broadcastInDim S64x256x4096 ![] bcast_S_S64x256x4096 main_cst_0
  let main_v6 : IVec S64x256x4096 1 := cmpf .olt main_v4 main_v5
  let main_c_1 : IVec S_ 1 := constantI S_ 1 1#1
  let main_v7 : IVec S_ 1 := (fun x v => Host.reduce IntOp.andi x v reducesTo_S64x256x4096_S_d0_1_2 h_S_) main_v6 main_c_1
  let main_v8 : IVec S_ 1 := andi main_v3 main_v7
  let main_v9 : FVec F S64x256x512 .f32 := Host.absf main_arg2
  let main_cst_2 : FVec F S_ .f32 := constant S_ .f32 0x7F800000#32
  let main_v10 : FVec F S64x256x512 .f32 := broadcastInDim S64x256x512 ![] bcast_S_S64x256x512 main_cst_2
  let main_v11 : IVec S64x256x512 1 := cmpf .olt main_v9 main_v10
  let main_c_3 : IVec S_ 1 := constantI S_ 1 1#1
  let main_v12 : IVec S_ 1 := (fun x v => Host.reduce IntOp.andi x v reducesTo_S64x256x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_v13 main_v16
-- ==== Kernel.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S64x1x512 : Shape := ⟨3, ![64, 1, 512]⟩
abbrev S64x1x64 : Shape := ⟨3, ![64, 1, 64]⟩
abbrev S64x2048x128 : Shape := ⟨3, ![64, 2048, 128]⟩
abbrev S1x256x256 : Shape := ⟨3, ![1, 256, 256]⟩
abbrev S1x256x2048 : Shape := ⟨3, ![1, 256, 2048]⟩
abbrev S1x256x512 : Shape := ⟨3, ![1, 256, 512]⟩
abbrev S1x1x512 : Shape := ⟨3, ![1, 1, 512]⟩
abbrev S1x512x64 : Shape := ⟨3, ![1, 512, 64]⟩
abbrev S1x1x64 : Shape := ⟨3, ![1, 1, 64]⟩
abbrev S1x1024x128 : Shape := ⟨3, ![1, 1024, 128]⟩
abbrev S256x256 : Shape := ⟨2, ![256, 256]⟩
abbrev S256x512 : Shape := ⟨2, ![256, 512]⟩
abbrev S512x64 : Shape := ⟨2, ![512, 64]⟩
abbrev S256x2048 : Shape := ⟨2, ![256, 2048]⟩
abbrev S2048x512 : Shape := ⟨2, ![2048, 512]⟩
abbrev S1x512 : Shape := ⟨2, ![1, 512]⟩
abbrev S2048x64 : Shape := ⟨2, ![2048, 64]⟩
abbrev S1x64 : Shape := ⟨2, ![1, 64]⟩
abbrev S1024x128 : Shape := ⟨2, ![1024, 128]⟩
abbrev S64x4096x64 : Shape := ⟨3, ![64, 4096, 64]⟩

abbrev nBuf : Space → Nat
  | .hbm => 10
  | .vmem => 17
  | .smem => 0
  | _ => 0

abbrev bufTy : (tb : Table) → Fin (tcTables nBuf tb) → BufTy
  | .hbm, ⟨0, _⟩ => ⟨S64x256x256, .f32⟩
  | .hbm, ⟨1, _⟩ => ⟨S64x256x4096, .f32⟩
  | .hbm, ⟨2, _⟩ => ⟨S64x256x512, .f32⟩
  | .hbm, ⟨3, _⟩ => ⟨S64x512, .f32⟩
  | .hbm, ⟨4, _⟩ => ⟨S64x512x64, .f32⟩
  | .hbm, ⟨5, _⟩ => ⟨S64x64, .f32⟩
  | .hbm, ⟨6, _⟩ => ⟨S64x1x512, .f32⟩
  | .hbm, ⟨7, _⟩ => ⟨S64x1x64, .f32⟩
  | .hbm, ⟨8, _⟩ => ⟨S64x2048x128, .f32⟩
  | .hbm, ⟨9, _⟩ => ⟨S64x4096x64, .f32⟩
  | .local _ .vmem, ⟨0, _⟩ => ⟨S1x256x256, .f32⟩
  | .local _ .vmem, ⟨1, _⟩ => ⟨S1x256x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | .local _ .vmem, ⟨8, _⟩ => ⟨S1x512x64, .f32⟩
  | .local _ .vmem, ⟨9, _⟩ => ⟨S1x512x64, .f32⟩
  | .local _ .vmem, ⟨10, _⟩ => ⟨S1x1x64, .f32⟩
  | .local _ .vmem, ⟨11, _⟩ => ⟨S1x1x64, .f32⟩
  | .local _ .vmem, ⟨12, _⟩ => ⟨S1x1024x128, .f32⟩
  | .local _ .vmem, ⟨13, _⟩ => ⟨S1x1024x128, .f32⟩
  | .local _ .vmem, ⟨14, _⟩ => ⟨S256x256, .bf16⟩
  | .local _ .vmem, ⟨15, _⟩ => ⟨S256x512, .bf16⟩
  | .local _ .vmem, ⟨16, _⟩ => ⟨S512x64, .bf16⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64x512_S64x1x512 : S64x512.ShapeCasts S64x1x512
  shapeCasts_S64x64_S64x1x64 : S64x64.ShapeCasts S64x1x64
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S2048x64 : S1x64.Broadcasts S2048x64
  shapeCasts_S2048x64_S1024x128 : S2048x64.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  shapeCasts_S64x2048x128_S64x4096x64 : S64x2048x128.ShapeCasts S64x4096x64
  dot_S256x256_S256x2048_S256x2048_1_0_0_1_n_n_wf : DotDims.WF S256x256 S256x2048 S256x2048 [1] [0] [0] [1] [] []
  dot_S256x2048_S256x512_S2048x512_0_0_1_1_n_n_wf : DotDims.WF S256x2048 S256x512 S2048x512 [0] [0] [1] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S64x256x256.size a
  hwx0_0 : ∀ i : grid0.Coords, EltTy.bits .f32 = 32 ∨ (Rect.block (s := S64x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S64x256x4096.size a
  hwx0_1 : ∀ i : grid0.Coords, EltTy.bits .f32 = 32 ∨ (Rect.block (s := S64x256x4096) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S64x256x512.size a
  hwx0_2 : ∀ i : grid0.Coords, EltTy.bits .f32 = 32 ∨ (Rect.block (s := S64x256x512) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x512x64.size a
  hwx0_4 : ∀ i : grid0.Coords, EltTy.bits .f32 = 32 ∨ (Rect.block (s := S64x512x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S64x1x64.size a
  hwx0_5 : ∀ i : grid0.Coords, EltTy.bits .f32 = 32 ∨ (Rect.block (s := S64x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S64x2048x128.size a
  hwx0_6 : ∀ i : grid0.Coords, EltTy.bits .f32 = 32 ∨ (Rect.block (s := S64x2048x128) S1x1024x128.size (cc0_transform_6 i) (hinb0_6 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S256x512_S2048x512_0_0_1_1_n_n : DotDims S256x2048 S256x512 S2048x512 where
  lhsContracting := [0]
  rhsContracting := [0]
  lhsNonContracting := [1]
  rhsNonContracting := [1]
  lhsBatch := []
  rhsBatch := []
  wf := dot_S256x2048_S256x512_S2048x512_0_0_1_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S64x256x4096 : Shape := ⟨3, ![64, 256, 4096]⟩
abbrev S64x256x512 : Shape := ⟨3, ![64, 256, 512]⟩
abbrev S64x512 : Shape := ⟨2, ![64, 512]⟩
abbrev S64x512x64 : Shape := ⟨3, ![64, 512, 64]⟩
abbrev S64x64 : Shape := ⟨2, ![64, 64]⟩
abbrev S64x4096x256 : Shape := ⟨3, ![64, 4096, 256]⟩
abbrev S64x4096x512 : Shape := ⟨3, ![64, 4096, 512]⟩
abbrev S64x1x512 : Shape := ⟨3, ![64, 1, 512]⟩
abbrev S_ : Shape := ⟨0, ![]⟩
abbrev S64x4096x64 : Shape := ⟨3, ![64, 4096, 64]⟩
abbrev S64x1x64 : Shape := ⟨3, ![64, 1, 64]⟩

abbrev nBuf : Space → Nat
  | .hbm => 19
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S64x256x4096, .f32⟩
  | .hbm, ⟨2, _⟩ => ⟨S64x256x512, .f32⟩
  | .hbm, ⟨3, _⟩ => ⟨S64x512, .f32⟩
  | .hbm, ⟨4, _⟩ => ⟨S64x512x64, .f32⟩
  | .hbm, ⟨5, _⟩ => ⟨S64x64, .f32⟩
  | .hbm, ⟨6, _⟩ => ⟨S64x256x4096, .f32⟩
  | .hbm, ⟨7, _⟩ => ⟨S64x4096x256, .f32⟩
  | .hbm, ⟨8, _⟩ => ⟨S64x4096x512, .f32⟩
  | .hbm, ⟨9, _⟩ => ⟨S64x1x512, .f32⟩
  | .hbm, ⟨10, _⟩ => ⟨S64x4096x512, .f32⟩
  | .hbm, ⟨11, _⟩ => ⟨S64x4096x512, .f32⟩
  | .hbm, ⟨12, _⟩ => ⟨S_, .f32⟩
  | .hbm, ⟨13, _⟩ => ⟨S64x4096x512, .f32⟩
  | .hbm, ⟨14, _⟩ => ⟨S64x4096x512, .f32⟩
  | .hbm, ⟨15, _⟩ => ⟨S64x4096x64, .f32⟩
  | .hbm, ⟨16, _⟩ => ⟨S64x1x64, .f32⟩
  | .hbm, ⟨17, _⟩ => ⟨S64x4096x64, .f32⟩
  | .hbm, ⟨18, _⟩ => ⟨S64x4096x64, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  transposes_S64x256x4096_S64x4096x256_0_2_1 : S64x256x4096.Transposes [0, 2, 1] S64x4096x256
  bcast_S64x512_S64x1x512_0_2 : S64x512.BroadcastsInDim S64x1x512 (![0, 2] : Fin 2 → Fin S64x1x512.rank)
  bcast_S64x1x512_S64x4096x512_0_1_2 : S64x1x512.BroadcastsInDim S64x4096x512 (![0, 1, 2] : Fin 3 → Fin S64x4096x512.rank)
  bcast_S_S64x4096x512 : S_.BroadcastsInDim S64x4096x512 (![] : Fin 0 → Fin S64x4096x512.rank)
  bcast_S64x64_S64x1x64_0_2 : S64x64.BroadcastsInDim S64x1x64 (![0, 2] : Fin 2 → Fin S64x1x64.rank)
  bcast_S64x1x64_S64x4096x64_0_1_2 : S64x1x64.BroadcastsInDim S64x4096x64 (![0, 1, 2] : Fin 3 → Fin S64x4096x64.rank)
  dot_S64x256x256_S64x256x4096_S64x256x4096_2_1_1_2_0_0_wf : DotDims.WF S64x256x256 S64x256x4096 S64x256x4096 [2] [1] [1] [2] [0] [0]
  dot_S64x4096x256_S64x256x512_S64x4096x512_2_1_1_2_0_0_wf : DotDims.WF S64x4096x256 S64x256x512 S64x4096x512 [2] [1] [1] [2] [0] [0]
  dot_S64x4096x512_S64x512x64_S64x4096x64_2_1_1_2_0_0_wf : DotDims.WF S64x4096x512 S64x512x64 S64x4096x64 [2] [1] [1] [2] [0] [0]

variable [Facts₀]

def dot_S64x256x256_S64x256x4096_S64x256x4096_2_1_1_2_0_0 : DotDims S64x256x256 S64x256x4096 S64x256x4096 where
  lhsContracting := [2]
  rhsContracting := [1]
  lhsNonContracting := [1]
  rhsNonContracting := [2]
  lhsBatch := [0]
  rhsBatch := [0]
  wf := dot_S64x256x256_S64x256x4096_S64x256x4096_2_1_1_2_0_0_wf
def dot_S64x4096x256_S64x256x512_S64x4096x512_2_1_1_2_0_0 : DotDims S64x4096x256 S64x256x512 S64x4096x512 where
  lhsContracting := [2]
  rhsContracting := [1]
  lhsNonContracting := [1]
  rhsNonContracting := [2]
  lhsBatch := [0]
  rhsBatch := [0]
  wf := dot_S64x4096x256_S64x256x512_S64x4096x512_2_1_1_2_0_0_wf
def dot_S64x4096x512_S64x512x64_S64x4096x64_2_1_1_2_0_0 : DotDims S64x4096x512 S64x512x64 S64x4096x64 where
  lhsContracting := [2]
  rhsContracting := [1]
  lhsNonContracting := [1]
  rhsNonContracting := [2]
  lhsBatch := [0]
  rhsBatch := [0]
  wf := dot_S64x4096x512_S64x512x64_S64x4096x64_2_1_1_2_0_0_wf

class Facts : Prop extends Facts₀ where

variable [Facts]
-- ==== Proof.Spec.lean ====
/-
  The pathway network, index by index, as one function of the six argument arrays.

  For pathway `p`, cell `f`, output unit `o`:

      agg p n f = ∑ m, L (p, n, m) · E (p, m, f)                              (Laplacian aggregation)
      hid p f h = max (∑ n, agg p n f · W₁ (p, n, h) + b₁ (p, h)) 0          (hidden layer, rectified)
      net p f o = ∑ h, hid p f h · W₂ (p, h, o) + b₂ (p, o)                  (output layer)

  on the extended reals; the zero of the rectifier is kept as the f32 word both programs print. `blockNet` is the same
  three layers over one pathway's blocks — what one grid point computes from the blocks it is handed — and
  `net_of_blocks` says that the blocks of pathway `p` and F-tile `g` give `net` at the cell `2048·g + j`. Nothing here
  needs the inputs finite: the two programs compute the same sums of the same products, and no term is moved across
  another.
-/
import Idealize.ShloMosaic.PureOps.Ideal
import Idealize.ShloMosaic.Lib.ValueIdx

noncomputable section

namespace Gcn

open Idealize.ShloMosaic Idealize.ShloMosaic.ValueIdx

abbrev SL : Shape := ⟨3, ![64, 256, 256]⟩
abbrev SE : Shape := ⟨3, ![64, 256, 4096]⟩
abbrev SW1 : Shape := ⟨3, ![64, 256, 512]⟩
abbrev SB1 : Shape := ⟨2, ![64, 512]⟩
abbrev SW2 : Shape := ⟨3, ![64, 512, 64]⟩
abbrev SB2 : Shape := ⟨2, ![64, 64]⟩
abbrev SO : Shape := ⟨3, ![64, 4096, 64]⟩
/-- The kernel's own layout of the result: two consecutive cells' 64 outputs side by side in one 128-wide row. -/
abbrev SO2 : Shape := ⟨3, ![64, 2048, 128]⟩

/-- The f32 zero word the rectifier compares with, at the ideal values. -/
abbrev zeroWord : EReal := Ideal.ofBits .f32 0x00000000#32

variable (L : SL.Idx → EReal) (E : SE.Idx → EReal) (W1 : SW1.Idx → EReal) (B1 : SB1.Idx → EReal)
  (W2 : SW2.Idx → EReal) (B2 : SB2.Idx → EReal)

/-- The Laplacian aggregation of pathway `p`: gene `n`, cell `f`. -/
def agg (p : Fin 64) (n : Fin 256) (f : Fin 4096) : EReal :=
  ∑ m : Fin 256, L (ix3 p n m) * E (ix3 p m f)

/-- The rectified hidden layer: cell `f`, hidden unit `h`. -/
def hid (p : Fin 64) (f : Fin 4096) (h : Fin 512) : EReal :=
  max ((∑ n : Fin 256, agg L E p n f * W1 (ix3 p n h)) + B1 (ix2 p h)) zeroWord

/-- The output layer: cell `f`, output unit `o`. -/
def net (p : Fin 64) (f : Fin 4096) (o : Fin 64) : EReal :=
  (∑ h : Fin 512, hid L E W1 B1 p f h * W2 (ix3 p h o)) + B2 (ix2 p o)

/-- The result array `[64, 4096, 64]`. -/
def result : SO.Idx → EReal := fun i => net L E W1 B1 W2 B2 (i 0) (i 1) (i 2)

/-- The cell a position of the 128-wide layout holds: row `R`, lane `l` is cell `2R + l / 64`, -/
def cellOf (R : Fin 2048) (l : Fin 128) : Fin 4096 := ⟨2 * R.val + l.val / 64, by have := R.isLt; have := l.isLt; omega⟩
/-- output unit `l % 64`. -/
def unitOf (l : Fin 128) : Fin 64 := ⟨l.val % 64, Nat.mod_lt _ (by decide)⟩

/-- The result in the kernel's 128-wide layout `[64, 2048, 128]`. -/
def result2 : SO2.Idx → EReal := fun i => net L E W1 B1 W2 B2 (i 0) (cellOf (i 1) (i 2)) (unitOf (i 2))

/-! ## One grid point's computation, over the blocks it is handed -/

/-- The three layers over one pathway's blocks: the Laplacian `l` `[256, 256]`, an F-tile `e` `[1, 256, 2048]` of the
    expression array, the weights `w1` `[256, 512]` and `w2` `[512, 64]`, the biases `b1` `[1, 1, 512]`, `b2` `[1, 1, 64]`;
    cell `j` of the tile, output unit `o`. -/
def blockNet (l : (⟨2, ![256, 256]⟩ : Shape).Idx → EReal) (e : (⟨3, ![1, 256, 2048]⟩ : Shape).Idx → EReal)
    (w1 : (⟨2, ![256, 512]⟩ : Shape).Idx → EReal) (b1 : (⟨3, ![1, 1, 512]⟩ : Shape).Idx → EReal)
    (w2 : (⟨2, ![512, 64]⟩ : Shape).Idx → EReal) (b2 : (⟨3, ![1, 1, 64]⟩ : Shape).Idx → EReal)
    (j : Fin 2048) (o : Fin 64) : EReal :=
  (∑ h : Fin 512,
      max ((∑ n : Fin 256, (∑ m : Fin 256, l (ix2 n m) * e (ix3 (0 : Fin 1) m j)) * w1 (ix2 n h)) + b1 (ix3 (0 : Fin 1) (0 : Fin 1) h)) zeroWord
        * w2 (ix2 h o))
    + b2 (ix3 (0 : Fin 1) (0 : Fin 1) o)

/-- Blocks that are pathway `p`'s rows of the arrays, the expression block its F-tile `g`, compute `net` at cell
    `2048·g + j`. -/
theorem net_of_blocks (p : Fin 64) (g : Fin 2) (j : Fin 2048) (o : Fin 64) (f : Fin 4096) (hf : f.val = 2048 * g.val + j.val)
    (l : (⟨2, ![256, 256]⟩ : Shape).Idx → EReal) (e : (⟨3, ![1, 256, 2048]⟩ : Shape).Idx → EReal)
    (w1 : (⟨2, ![256, 512]⟩ : Shape).Idx → EReal) (b1 : (⟨3, ![1, 1, 512]⟩ : Shape).Idx → EReal)
    (w2 : (⟨2, ![512, 64]⟩ : Shape).Idx → EReal) (b2 : (⟨3, ![1, 1, 64]⟩ : Shape).Idx → EReal)
    (hl : ∀ n m, l (ix2 n m) = L (ix3 p n m)) (he : ∀ m, e (ix3 (0 : Fin 1) m j) = E (ix3 p m f))
    (hw1 : ∀ n h, w1 (ix2 n h) = W1 (ix3 p n h)) (hb1 : ∀ h, b1 (ix3 (0 : Fin 1) (0 : Fin 1) h) = B1 (ix2 p h))
    (hw2 : ∀ h o, w2 (ix2 h o) = W2 (ix3 p h o)) (hb2 : ∀ o, b2 (ix3 (0 : Fin 1) (0 : Fin 1) o) = B2 (ix2 p o)) :
    blockNet l e w1 b1 w2 b2 j o = net L E W1 B1 W2 B2 p f o := by
  unfold blockNet net hid agg
  simp only [hl, he, hw1, hb1, hw2, hb2]

end Gcn

end
-- ==== Proof.Pieces.lean ====
/-
  What the body leaves, per control case, as the payloads' values.

  The body has two cases. At the first F-tile of a pathway (inner grid coordinate 0) it casts the pathway's Laplacian
  block and its two weight blocks into the three scratch buffers, reads them back, and stores the network's output
  block; at the other F-tile it stores nothing into the scratch and computes the output block from what the scratch
  already holds. Each buffer is written by one store covering it, so what it ends holding is that store's payload
  with every load read through the whole buffer it loads from.
-/
import proofs.«112206_j8031588843578_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a first F-tile the output block is the network's payload of the scratch contents the point before
    left and of this point's expression and bias blocks. -/
theorem out_B (c : Dev nD) (i : grid0.Coords) (arg2 : Memref sig .tc .vmem S1x256x256 .f32) (harg2 : arg2.IsWhole) (arg3 : Memref sig .tc .vmem S1x256x2048 .f32) (harg3 : arg3.IsWhole) (arg4 : Memref sig .tc .vmem S1x256x512 .f32) (harg4 : arg4.IsWhole) (arg5 : Memref sig .tc .vmem S1x1x512 .f32) (harg5 : arg5.IsWhole) (arg6 : Memref sig .tc .vmem S1x512x64 .f32) (harg6 : arg6.IsWhole) (arg7 : Memref sig .tc .vmem S1x1x64 .f32) (harg7 : arg7.IsWhole) (arg8 : Memref sig .tc .vmem S1x1024x128 .f32) (harg8 : arg8.IsWhole) (arg9 : Memref sig .tc .vmem S256x256 .bf16) (harg9 : arg9.IsWhole) (arg10 : Memref sig .tc .vmem S256x512 .bf16) (harg10 : arg10.IsWhole) (arg11 : Memref sig .tc .vmem S512x64 .bf16) (harg11 : arg11.IsWhole) (hc0 : ¬cond0_0 i)
    (x0 : Vec F S1x256x256 .f32) (x1 : Vec F S1x256x2048 .f32) (x2 : Vec F S1x256x512 .f32) (x3 : Vec F S1x1x512 .f32) (x4 : Vec F S1x512x64 .f32) (x5 : Vec F S1x1x64 .f32) (xs0 : Vec F S256x256 .bf16) (xs1 : Vec F S256x512 .bf16) (xs2 : Vec F S512x64 .bf16) :
    out0_B_6 c i arg2 harg2 arg3 harg3 arg4 harg4 arg5 harg5 arg6 harg6 arg7 harg7 arg8 harg8 arg9 harg9 arg10 harg10 arg11 harg11 hc0 x0 x1 x2 x3 x4 x5 xs0 xs1 xs2 = k0_pay4 xs0 x1 xs1 x3 xs2 x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1 xs2)]
  unfold kernelRun0_B
  dsimp only
  rw [View.canon_unit_zero hz3]
  simp only [View.readAt_eq_ld, harg2.read_unread, harg4.read_unread, harg6.read_unread, harg9.read_unread, harg3.read_unread, harg10.read_unread, harg5.read_unread, harg11.read_unread, harg7.read_unread,
    View.ld_unit_zero (S := S256x256) hz2, View.ld_unit_zero (S := S256x512) hz2, View.ld_unit_zero (S := S512x64) hz2,
    View.ld_unit_zero (S := S1x256x256) hz3, View.ld_unit_zero (S := S1x256x512) hz3, View.ld_unit_zero (S := S1x512x64) hz3,
    View.ld_unit_zero (S := S1x256x2048) hz3, View.ld_unit_zero (S := S1x1x512) hz3, View.ld_unit_zero (S := S1x1x64) hz3]

/-- At a first F-tile the output block is the same payload of the casts just stored: each scratch is read back
    after the one store that covers it. -/
theorem out_A (c : Dev nD) (i : grid0.Coords) (arg2 : Memref sig .tc .vmem S1x256x256 .f32) (harg2 : arg2.IsWhole) (arg3 : Memref sig .tc .vmem S1x256x2048 .f32) (harg3 : arg3.IsWhole) (arg4 : Memref sig .tc .vmem S1x256x512 .f32) (harg4 : arg4.IsWhole) (arg5 : Memref sig .tc .vmem S1x1x512 .f32) (harg5 : arg5.IsWhole) (arg6 : Memref sig .tc .vmem S1x512x64 .f32) (harg6 : arg6.IsWhole) (arg7 : Memref sig .tc .vmem S1x1x64 .f32) (harg7 : arg7.IsWhole) (arg8 : Memref sig .tc .vmem S1x1024x128 .f32) (harg8 : arg8.IsWhole) (arg9 : Memref sig .tc .vmem S256x256 .bf16) (harg9 : arg9.IsWhole) (arg10 : Memref sig .tc .vmem S256x512 .bf16) (harg10 : arg10.IsWhole) (arg11 : Memref sig .tc .vmem S512x64 .bf16) (harg11 : arg11.IsWhole) (hc0 : cond0_0 i)
    (x0 : Vec F S1x256x256 .f32) (x1 : Vec F S1x256x2048 .f32) (x2 : Vec F S1x256x512 .f32) (x3 : Vec F S1x1x512 .f32) (x4 : Vec F S1x512x64 .f32) (x5 : Vec F S1x1x64 .f32) :
    out0_A_6 c i arg2 harg2 arg3 harg3 arg4 harg4 arg5 harg5 arg6 harg6 arg7 harg7 arg8 harg8 arg9 harg9 arg10 harg10 arg11 harg11 hc0 x0 x1 x2 x3 x4 x5 = k0_pay4 (k0_pay1 x0) x1 (k0_pay2 x2) x3 (k0_pay3 x4) x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz3, View.readCov_unit_zero (S := S256x256) _ hz2, View.readCov_unit_zero (S := S256x512) _ hz2,
    View.readCov_unit_zero (S := S512x64) _ hz2]
  simp only [View.readAt_eq_ld, harg2.read_unread, harg4.read_unread, harg6.read_unread, harg9.read_unread, harg3.read_unread, harg10.read_unread, harg5.read_unread, harg11.read_unread, harg7.read_unread,
    View.ld_unit_zero (S := S256x256) hz2, View.ld_unit_zero (S := S256x512) hz2, View.ld_unit_zero (S := S512x64) hz2,
    View.ld_unit_zero (S := S1x256x256) hz3, View.ld_unit_zero (S := S1x256x512) hz3, View.ld_unit_zero (S := S1x512x64) hz3,
    View.ld_unit_zero (S := S1x256x2048) hz3, View.ld_unit_zero (S := S1x1x512) hz3, View.ld_unit_zero (S := S1x1x64) hz3]

/-- At a first F-tile the body leaves in the first scratch the cast of that point's block (one covering store). -/
theorem sout_A_0 (c : Dev nD) (i : grid0.Coords) (arg2 : Memref sig .tc .vmem S1x256x256 .f32) (harg2 : arg2.IsWhole) (arg3 : Memref sig .tc .vmem S1x256x2048 .f32) (harg3 : arg3.IsWhole) (arg4 : Memref sig .tc .vmem S1x256x512 .f32) (harg4 : arg4.IsWhole) (arg5 : Memref sig .tc .vmem S1x1x512 .f32) (harg5 : arg5.IsWhole) (arg6 : Memref sig .tc .vmem S1x512x64 .f32) (harg6 : arg6.IsWhole) (arg7 : Memref sig .tc .vmem S1x1x64 .f32) (harg7 : arg7.IsWhole) (arg8 : Memref sig .tc .vmem S1x1024x128 .f32) (harg8 : arg8.IsWhole) (arg9 : Memref sig .tc .vmem S256x256 .bf16) (harg9 : arg9.IsWhole) (arg10 : Memref sig .tc .vmem S256x512 .bf16) (harg10 : arg10.IsWhole) (arg11 : Memref sig .tc .vmem S512x64 .bf16) (harg11 : arg11.IsWhole) (hc0 : cond0_0 i)
    (x0 : Vec F S1x256x256 .f32) (x1 : Vec F S1x256x2048 .f32) (x2 : Vec F S1x256x512 .f32) (x3 : Vec F S1x1x512 .f32) (x4 : Vec F S1x512x64 .f32) (x5 : Vec F S1x1x64 .f32) :
    sout0_A_0 c i arg2 harg2 arg3 harg3 arg4 harg4 arg5 harg5 arg6 harg6 arg7 harg7 arg8 harg8 arg9 harg9 arg10 harg10 arg11 harg11 hc0 x0 x1 x2 x3 x4 x5 = k0_pay1 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz2]
  simp only [View.readAt_eq_ld, harg2.read_unread, harg4.read_unread, harg6.read_unread, harg9.read_unread, harg3.read_unread, harg10.read_unread, harg5.read_unread, harg11.read_unread, harg7.read_unread,
    View.ld_unit_zero (S := S256x256) hz2, View.ld_unit_zero (S := S256x512) hz2, View.ld_unit_zero (S := S512x64) hz2,
    View.ld_unit_zero (S := S1x256x256) hz3, View.ld_unit_zero (S := S1x256x512) hz3, View.ld_unit_zero (S := S1x512x64) hz3,
    View.ld_unit_zero (S := S1x256x2048) hz3, View.ld_unit_zero (S := S1x1x512) hz3, View.ld_unit_zero (S := S1x1x64) hz3]

/-- At a first F-tile the body leaves in the second scratch the cast of that point's block (one covering store). -/
theorem sout_A_1 (c : Dev nD) (i : grid0.Coords) (arg2 : Memref sig .tc .vmem S1x256x256 .f32) (harg2 : arg2.IsWhole) (arg3 : Memref sig .tc .vmem S1x256x2048 .f32) (harg3 : arg3.IsWhole) (arg4 : Memref sig .tc .vmem S1x256x512 .f32) (harg4 : arg4.IsWhole) (arg5 : Memref sig .tc .vmem S1x1x512 .f32) (harg5 : arg5.IsWhole) (arg6 : Memref sig .tc .vmem S1x512x64 .f32) (harg6 : arg6.IsWhole) (arg7 : Memref sig .tc .vmem S1x1x64 .f32) (harg7 : arg7.IsWhole) (arg8 : Memref sig .tc .vmem S1x1024x128 .f32) (harg8 : arg8.IsWhole) (arg9 : Memref sig .tc .vmem S256x256 .bf16) (harg9 : arg9.IsWhole) (arg10 : Memref sig .tc .vmem S256x512 .bf16) (harg10 : arg10.IsWhole) (arg11 : Memref sig .tc .vmem S512x64 .bf16) (harg11 : arg11.IsWhole) (hc0 : cond0_0 i)
    (x0 : Vec F S1x256x256 .f32) (x1 : Vec F S1x256x2048 .f32) (x2 : Vec F S1x256x512 .f32) (x3 : Vec F S1x1x512 .f32) (x4 : Vec F S1x512x64 .f32) (x5 : Vec F S1x1x64 .f32) :
    sout0_A_1 c i arg2 harg2 arg3 harg3 arg4 harg4 arg5 harg5 arg6 harg6 arg7 harg7 arg8 harg8 arg9 harg9 arg10 harg10 arg11 harg11 hc0 x0 x1 x2 x3 x4 x5 = k0_pay2 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz2]
  simp only [View.readAt_eq_ld, harg2.read_unread, harg4.read_unread, harg6.read_unread, harg9.read_unread, harg3.read_unread, harg10.read_unread, harg5.read_unread, harg11.read_unread, harg7.read_unread,
    View.ld_unit_zero (S := S256x256) hz2, View.ld_unit_zero (S := S256x512) hz2, View.ld_unit_zero (S := S512x64) hz2,
    View.ld_unit_zero (S := S1x256x256) hz3, View.ld_unit_zero (S := S1x256x512) hz3, View.ld_unit_zero (S := S1x512x64) hz3,
    View.ld_unit_zero (S := S1x256x2048) hz3, View.ld_unit_zero (S := S1x1x512) hz3, View.ld_unit_zero (S := S1x1x64) hz3]

/-- At a first F-tile the body leaves in the third scratch the cast of that point's block (one covering store). -/
theorem sout_A_2 (c : Dev nD) (i : grid0.Coords) (arg2 : Memref sig .tc .vmem S1x256x256 .f32) (harg2 : arg2.IsWhole) (arg3 : Memref sig .tc .vmem S1x256x2048 .f32) (harg3 : arg3.IsWhole) (arg4 : Memref sig .tc .vmem S1x256x512 .f32) (harg4 : arg4.IsWhole) (arg5 : Memref sig .tc .vmem S1x1x512 .f32) (harg5 : arg5.IsWhole) (arg6 : Memref sig .tc .vmem S1x512x64 .f32) (harg6 : arg6.IsWhole) (arg7 : Memref sig .tc .vmem S1x1x64 .f32) (harg7 : arg7.IsWhole) (arg8 : Memref sig .tc .vmem S1x1024x128 .f32) (harg8 : arg8.IsWhole) (arg9 : Memref sig .tc .vmem S256x256 .bf16) (harg9 : arg9.IsWhole) (arg10 : Memref sig .tc .vmem S256x512 .bf16) (harg10 : arg10.IsWhole) (arg11 : Memref sig .tc .vmem S512x64 .bf16) (harg11 : arg11.IsWhole) (hc0 : cond0_0 i)
    (x0 : Vec F S1x256x256 .f32) (x1 : Vec F S1x256x2048 .f32) (x2 : Vec F S1x256x512 .f32) (x3 : Vec F S1x1x512 .f32) (x4 : Vec F S1x512x64 .f32) (x5 : Vec F S1x1x64 .f32) :
    sout0_A_2 c i arg2 harg2 arg3 harg3 arg4 harg4 arg5 harg5 arg6 harg6 arg7 harg7 arg8 harg8 arg9 harg9 arg10 harg10 arg11 harg11 hc0 x0 x1 x2 x3 x4 x5 = k0_pay3 x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz2]
  simp only [View.readAt_eq_ld, harg2.read_unread, harg4.read_unread, harg6.read_unread, harg9.read_unread, harg3.read_unread, harg10.read_unread, harg5.read_unread, harg11.read_unread, harg7.read_unread,
    View.ld_unit_zero (S := S256x256) hz2, View.ld_unit_zero (S := S256x512) hz2, View.ld_unit_zero (S := S512x64) hz2,
    View.ld_unit_zero (S := S1x256x256) hz3, View.ld_unit_zero (S := S1x256x512) hz3, View.ld_unit_zero (S := S1x512x64) hz3,
    View.ld_unit_zero (S := S1x256x2048) hz3, View.ld_unit_zero (S := S1x1x512) hz3, View.ld_unit_zero (S := S1x1x64) hz3]

end Cert.KernelIdeal.Pieces
end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibFirstAxesDot.lean ====
/-
  A matrix product contracting both operands' FIRST axes, into a zero accumulator, read at coordinates.

  For a dot of a `[K, M]` matrix with a `[K, N]` matrix whose dimension numbers contract the two first axes and keep the
  two second axes in order (the einsum 'km,kn->mn': the left operand used transposed without a transpose being
  materialized), the product accumulated into the zero splat is, at `(p, c)`,

      ∑ k : Fin K, l (k, p) · r (k, c)

  on the extended reals. The dimension record enters only through four facts about its operand indices — the left index at
  output index `i` and contraction position `q` is `(q, i 0)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.FirstAxesDot

open Idealize.ShloMosaic Idealize.ShloMosaic.ValueIdx

/-- The product of a `[K, M]` and a `[K, N]` matrix over their first axes into the zero splat at `(p, c)`: the sum over `k`
    of `l (k, p) · r (k, c)`. -/
theorem matmul_zero_first_axes {K M N : ℕ} {φ₁ φ₂ : FTy}
    (D : DotDims ⟨2, ![K, M]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (q ⟨0, by omega⟩).val)
    (hl1 : ∀ (i : (⟨2, ![M, N]⟩ : Shape).Idx) (q : D.contr.Idx), (D.lhsIdx i q (1 : Fin 2)).val = (i (0 : Fin 2)).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![K, M]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.FirstAxesDot
-- ==== Proof.PayloadAt.lean ====
/-
  The output block's payload read at an index.

  The payload is three matrix products into zero accumulators chained through a transposed use of the first product, a
  row bias, a rectifier and a second row bias, then re-laid from `[2048, 64]` to `[1024, 128]` (row-major: position `(r, l)`
  of the wide layout is cell `2r + l / 64`, output unit `l % 64`). Read at `(0, r, l)` it is `Gcn.blockNet` of its six operands
  at that cell and unit; the narrowing casts to bf16 are the identity at the ideal values.
-/
import proofs.«112206_j8031588843578_2_alg».proof.Proof.Gen.KernelIdeal.Skeleton
import proofs.«112206_j8031588843578_2_alg».proof.Proof.Spec
import proofs.«112206_j8031588843578_2_alg».proof.Proof.LibPlainDot
import proofs.«112206_j8031588843578_2_alg».proof.Proof.LibFirstAxesDot
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The aggregation product `[256, 256] × [256, 2048]` at `(n, j)`, its right operand the expression block cast from
    `[1, 256, 2048]`. -/
theorem aggregate_at (l : FVec Ideal S256x256 .bf16) (e : FVec Ideal S1x256x2048 .f32) (n : Fin 256) (j : Fin 2048) :
    matmul dot_S256x256_S256x2048_S256x2048_1_0_0_1_n_n none l (truncf .bf16 (shapeCast S256x2048 e Facts₀.shapeCasts_S1x256x2048_S256x2048) Facts₀.bitsLt_bf16_f32)
        (constant (F := Ideal) S256x2048 .f32 0x00000000#32) (ix2 n j)
      = ∑ m : Fin 256, l (ix2 n m) * e (ix3 (0 : Fin 1) m j) := by
  refine (Cert.Lib.PlainDot.matmul_zero_ix2 dot_S256x256_S256x2048_S256x2048_1_0_0_1_n_n rfl rfl
    (fun i q => by
      unfold DotDims.lhsIdx
      rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
      rfl)
    (fun i q => dot_S256x256_S256x2048_S256x2048_1_0_0_1_n_n.lhsIdx_val_of_single rfl i q)
    (fun i q => dot_S256x256_S256x2048_S256x2048_1_0_0_1_n_n.rhsIdx_val_of_single rfl i q)
    (fun i q => by
      unfold DotDims.rhsIdx
      rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
      rfl)
    none l _ n j).trans ?_
  refine Finset.sum_congr rfl fun m _ => ?_
  exact congrArg (l (ix2 n m) * ·) (shapeCast_1ab_ab_apply e Facts₀.shapeCasts_S1x256x2048_S256x2048 m j)

/-- The hidden product 'nf,nh->fh' `[256, 2048] × [256, 512]` over the two first axes at `(j, h)`. -/
theorem hidden_at (a : FVec Ideal S256x2048 .f32) (w : FVec Ideal S256x512 .bf16) (j : Fin 2048) (h : Fin 512) :
    matmul dot_S256x2048_S256x512_S2048x512_0_0_1_1_n_n none (truncf .bf16 a Facts₀.bitsLt_bf16_f32) w (constant (F := Ideal) S2048x512 .f32 0x00000000#32) (ix2 j h)
      = ∑ n : Fin 256, a (ix2 n j) * w (ix2 n h) :=
  Cert.Lib.FirstAxesDot.matmul_zero_first_axes dot_S256x2048_S256x512_S2048x512_0_0_1_1_n_n rfl rfl
    (fun i q => dot_S256x2048_S256x512_S2048x512_0_0_1_1_n_n.lhsIdx_val_of_single rfl i q)
    (fun i q => by
      unfold DotDims.lhsIdx
      rw [dif_neg (show ¬(1 : Fin S256x2048.rank) ∈ dot_S256x2048_S256x512_S2048x512_0_0_1_1_n_n.lhsBatch by decide), dif_pos (show (1 : Fin S256x2048.rank) ∈ dot_S256x2048_S256x512_S2048x512_0_0_1_1_n_n.lhsNonContracting by decide)]
      rfl)
    (fun i q => dot_S256x2048_S256x512_S2048x512_0_0_1_1_n_n.rhsIdx_val_of_single rfl i q)
    (fun i q => by
      unfold DotDims.rhsIdx
      rw [dif_neg (show ¬(1 : Fin S256x512.rank) ∈ dot_S256x2048_S256x512_S2048x512_0_0_1_1_n_n.rhsBatch by decide), dif_pos (show (1 : Fin S256x512.rank) ∈ dot_S256x2048_S256x512_S2048x512_0_0_1_1_n_n.rhsNonContracting by decide)]
      rfl)
    none _ w j h

/-- The output product `[2048, 512] × [512, 64]` at `(j, o)`. -/
theorem output_at (x : FVec Ideal S2048x512 .f32) (w : FVec Ideal S512x64 .bf16) (j : Fin 2048) (o : Fin 64) :
    matmul dot_S2048x512_S512x64_S2048x64_1_0_0_1_n_n none (truncf .bf16 x Facts₀.bitsLt_bf16_f32) w (constant (F := Ideal) S2048x64 .f32 0x00000000#32) (ix2 j o)
      = ∑ h : Fin 512, x (ix2 j h) * w (ix2 h o) :=
  Cert.Lib.PlainDot.matmul_zero_ix2 dot_S2048x512_S512x64_S2048x64_1_0_0_1_n_n rfl rfl
    (fun i q => by
      unfold DotDims.lhsIdx
      rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
      rfl)
    (fun i q => dot_S2048x512_S512x64_S2048x64_1_0_0_1_n_n.lhsIdx_val_of_single rfl i q)
    (fun i q => dot_S2048x512_S512x64_S2048x64_1_0_0_1_n_n.rhsIdx_val_of_single rfl i q)
    (fun i q => by
      unfold DotDims.rhsIdx
      rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
      rfl)
    none _ w j o

/-- The hidden layer's bias row `[1, 1, 512]` cast to `[1, 512]` and broadcast over the 2048 cells, at `(j, h)`. -/
theorem bias1_at (b : FVec Ideal S1x1x512 .f32) (j : Fin 2048) (h : Fin 512) :
    broadcastTo S2048x512 (shapeCast S1x512 b Facts₀.shapeCasts_S1x1x512_S1x512) Facts₀.broadcasts_S1x512_S2048x512 (ix2 j h)
      = b (ix3 (0 : Fin 1) (0 : Fin 1) h) :=
  (broadcastTo_1b_ab_apply _ Facts₀.broadcasts_S1x512_S2048x512 j h).trans
    (shapeCast_1ab_ab_apply b Facts₀.shapeCasts_S1x1x512_S1x512 (0 : Fin 1) h)

/-- The output layer's bias row likewise, at `(j, o)`. -/
theorem bias2_at (b : FVec Ideal S1x1x64 .f32) (j : Fin 2048) (o : Fin 64) :
    broadcastTo S2048x64 (shapeCast S1x64 b Facts₀.shapeCasts_S1x1x64_S1x64) Facts₀.broadcasts_S1x64_S2048x64 (ix2 j o)
      = b (ix3 (0 : Fin 1) (0 : Fin 1) o) :=
  (broadcastTo_1b_ab_apply _ Facts₀.broadcasts_S1x64_S2048x64 j o).trans
    (shapeCast_1ab_ab_apply b Facts₀.shapeCasts_S1x1x64_S1x64 (0 : Fin 1) o)

/-- The re-laying `[2048, 64] → [1024, 128] → [1, 1024, 128]` read at `(0, r, l)`: the operand at cell `2r + l / 64`, unit
    `l % 64` (the same row-major position). -/
theorem relay_at (x : FVec Ideal S2048x64 .f32) (r : Fin 1024) (l : Fin 128) :
    shapeCast S1x1024x128 (shapeCast S1024x128 x Facts₀.shapeCasts_S2048x64_S1024x128) Facts₀.shapeCasts_S1024x128_S1x1024x128 (ix3 (0 : Fin 1) r l)
      = x (ix2 (⟨2 * r.val + l.val / 64, by have := r.isLt; have := l.isLt; omega⟩ : Fin 2048) (⟨l.val % 64, Nat.mod_lt _ (by decide)⟩ : Fin 64)) := by
  refine (shapeCast_ab_1ab_apply _ Facts₀.shapeCasts_S1024x128_S1x1024x128 (0 : Fin 1) r l).trans ?_
  refine shapeCast_apply x Facts₀.shapeCasts_S2048x64_S1024x128 _ _ ?_
  rw [Shape.rowMajor_val_two, Shape.rowMajor_val_two]
  show (2 * r.val + l.val / 64) * 64 + l.val % 64 = r.val * 128 + l.val
  have := l.isLt
  omega

/-- The output block's payload at `(0, r, l)`. -/
theorem pay4_at (v3 : Vec Ideal S256x256 .bf16) (v4 : Vec Ideal S1x256x2048 .f32) (v9 : Vec Ideal S256x512 .bf16)
    (v11 : Vec Ideal S1x1x512 .f32) (v18 : Vec Ideal S512x64 .bf16) (v20 : Vec Ideal S1x1x64 .f32) (r : Fin 1024) (l : Fin 128) :
    k0_pay4 (F := Ideal) v3 v4 v9 v11 v18 v20 (ix3 (0 : Fin 1) r l)
      = Gcn.blockNet v3 v4 v9 v11 v18 v20 (⟨2 * r.val + l.val / 64, by have := r.isLt; have := l.isLt; omega⟩ : Fin 2048) (⟨l.val % 64, Nat.mod_lt _ (by decide)⟩ : Fin 64) := by
  unfold k0_pay4
  refine (relay_at _ r l).trans ?_
  unfold Gcn.blockNet
  rw [addf_apply, output_at, bias2_at]
  refine congrArg (· + _) (Finset.sum_congr rfl fun h _ => ?_)
  rw [maximumf_apply, addf_apply, hidden_at, bias1_at]
  refine congrArg (fun z => max (z + _) _ * _) (Finset.sum_congr rfl fun n _ => ?_)
  rw [aggregate_at]

end Cert.KernelIdeal.PayloadAt

end
-- ==== Proof.KernelValue.lean ====
/-
  The kernel's value: what its result array ends holding.

  The grid is (pathway p, F-tile g), row-major, so point `t` is `p = t / 2`, `g = t % 2`. Every window but the expression
  window and the output moves with `p` alone; the expression window is tile `g` of pathway `p`'s `[256, 4096]` slab, the
  output block rows `1024·g … 1024·g + 1023` of pathway `p`'s `[2048, 128]` slab.

  The three scratch buffers are written at a pathway's first tile only, so by induction on the point they hold, after
  ANY point `t`, the casts of pathway `t / 2`'s Laplacian and weight blocks: at an even point they are stored from that
  point's blocks, at an odd point they are what the point before left, and the point before is of the same pathway.
  Hence every point's output block is the block network of its own pathway's blocks, which is the network's result, in
  the 128-wide layout, restricted to the block. The blocks cover the array; the host reshape after the call re-lays
  `[64, 2048, 128]` as `[64, 4096, 64]`, the same row-major positions.
-/
import proofs.«112206_j8031588843578_2_alg».proof.Proof.Gen.KernelIdeal.Frame
import proofs.«112206_j8031588843578_2_alg».proof.Proof.Pieces
import proofs.«112206_j8031588843578_2_alg».proof.Proof.PayloadAt
import proofs.«112206_j8031588843578_2_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The pathway of grid point `t`, -/
def pw (t : Fin cfg0.N) : Fin 64 := ⟨t.val / 2, by have := t.isLt; have : cfg0.N = 128 := N_0; omega⟩
/-- and its F-tile. -/
def ft (t : Fin cfg0.N) : Fin 2 := ⟨t.val % 2, Nat.mod_lt _ (by decide)⟩

/-- The printed index maps over the grid: every window's block index at point `t`. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0)
    ∧ (win0_5.index t (0 : Fin 3) = t.val / 2 ∧ win0_5.index t (1 : Fin 3) = 0 ∧ win0_5.index t (2 : Fin 3) = 0)
    ∧ (win0_6.index t (0 : Fin 3) = t.val / 2 ∧ win0_6.index t (1 : Fin 3) = t.val % 2 ∧ win0_6.index t (2 : Fin 3) = 0) :=
  (by decide +kernel : ∀ t : Fin grid0.N, _)

/-! ## The two bias arrays the host re-lays before the call -/

/-- The hidden bias as the region finds it: `[64, 512]` re-laid as `[64, 1, 512]`. -/
theorem V_main_v0 (c : Dev nD) :
    (V m c main_v0 : S64x1x512.Idx → EReal) = shapeCast S64x1x512 (m ((c : Thread nD τ).loc main_arg3)) Facts₀.shapeCasts_S64x512_S64x1x512 := by
  show StableHlo.after hostOps0 (fun b => m (c, b)) (Proc.devRef .tc main_v0) = _
  after_results
  rfl

/-- The output bias as the region finds it: `[64, 64]` re-laid as `[64, 1, 64]`. -/
theorem V_main_v1 (c : Dev nD) :
    (V m c main_v1 : S64x1x64.Idx → EReal) = shapeCast S64x1x64 (m ((c : Thread nD τ).loc main_arg5)) Facts₀.shapeCasts_S64x64_S64x1x64 := by
  show StableHlo.after hostOps0 (fun b => m (c, b)) (Proc.devRef .tc main_v1) = _
  after_results
  rfl

/-- `[a, b]` re-laid as `[a, 1, b]` reads, at `(p, 0, h)`, the operand at `(p, h)`. -/
theorem shapeCast_ab_a1b_apply {a b : ℕ} (x : (⟨2, ![a, b]⟩ : Shape).Idx → EReal)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-! ## The windows' blocks, read at coordinates -/

/-- The Laplacian block at point `t` is pathway `t / 2`'s. -/
theorem iblk0_at (c : Dev nD) (t : Fin cfg0.N) (n : Fin 256) (k : Fin 256) :
    (iblk m c 0 t : S1x256x256.Idx → EReal) (ix3 (0 : Fin 1) n k) = V m c main_arg0 (ix3 (pw t) n k) := by
  obtain ⟨h0, h1, h2, h3, h4, h5, h6⟩ := idx_facts t
  unfold iblk
  rw [View.read_apply]
  show V m c main_arg0 (((cfg0.win 0).blk t).view.emb (ix3 (0 : Fin 1) n k)) = _
  refine congrArg (V m c main_arg0) (funext fun a => Fin.ext ?_)
  match a with
  | ⟨0, _⟩ => show win0_0.index t (0 : Fin 3) * 1 + 1 * 0 = t.val / 2; have := h0.1; omega
  | ⟨1, _⟩ => show win0_0.index t (1 : Fin 3) * 256 + 1 * n.val = n.val; have := h0.2.1; omega
  | ⟨2, _⟩ => show win0_0.index t (2 : Fin 3) * 256 + 1 * k.val = k.val; have := h0.2.2; omega

/-- The cell a position of point `t`'s expression tile holds. -/
def cellAt (t : Fin cfg0.N) (j : Fin 2048) : Fin 4096 := ⟨2048 * (t.val % 2) + j.val, by have := j.isLt; omega⟩

/-- The expression block at point `t` is tile `t % 2` of pathway `t / 2`'s slab. -/
theorem iblk1_at (c : Dev nD) (t : Fin cfg0.N) (k : Fin 256) (j : Fin 2048) :
    (iblk m c 1 t : S1x256x2048.Idx → EReal) (ix3 (0 : Fin 1) k j) = V m c main_arg1 (ix3 (pw t) k (cellAt t j)) := by
  obtain ⟨h0, h1, h2, h3, h4, h5, h6⟩ := idx_facts t
  unfold iblk
  rw [View.read_apply]
  show V m c main_arg1 (((cfg0.win 1).blk t).view.emb (ix3 (0 : Fin 1) k j)) = _
  refine congrArg (V m c main_arg1) (funext fun a => Fin.ext ?_)
  match a with
  | ⟨0, _⟩ => show win0_1.index t (0 : Fin 3) * 1 + 1 * 0 = t.val / 2; have := h1.1; omega
  | ⟨1, _⟩ => show win0_1.index t (1 : Fin 3) * 256 + 1 * k.val = k.val; have := h1.2.1; omega
  | ⟨2, _⟩ => show win0_1.index t (2 : Fin 3) * 2048 + 1 * j.val = 2048 * (t.val % 2) + j.val; have := h1.2.2; omega

/-- The hidden weights' block at point `t` is pathway `t / 2`'s. -/
theorem iblk2_at (c : Dev nD) (t : Fin cfg0.N) (n : Fin 256) (h : Fin 512) :
    (iblk m c 2 t : S1x256x512.Idx → EReal) (ix3 (0 : Fin 1) n h) = V m c main_arg2 (ix3 (pw t) n h) := by
  obtain ⟨h0, h1, h2, h3, h4, h5, h6⟩ := idx_facts t
  unfold iblk
  rw [View.read_apply]
  show V m c main_arg2 (((cfg0.win 2).blk t).view.emb (ix3 (0 : Fin 1) n h)) = _
  refine congrArg (V m c main_arg2) (funext fun a => Fin.ext ?_)
  match a with
  | ⟨0, _⟩ => show win0_2.index t (0 : Fin 3) * 1 + 1 * 0 = t.val / 2; have := h2.1; omega
  | ⟨1, _⟩ => show win0_2.index t (1 : Fin 3) * 256 + 1 * n.val = n.val; have := h2.2.1; omega
  | ⟨2, _⟩ => show win0_2.index t (2 : Fin 3) * 512 + 1 * h.val = h.val; have := h2.2.2; omega

/-- The output weights' block at point `t` is pathway `t / 2`'s. -/
theorem iblk4_at (c : Dev nD) (t : Fin cfg0.N) (h : Fin 512) (o : Fin 64) :
    (iblk m c 4 t : S1x512x64.Idx → EReal) (ix3 (0 : Fin 1) h o) = V m c main_arg4 (ix3 (pw t) h o) := by
  obtain ⟨h0, h1, h2, h3, h4, h5, h6⟩ := idx_facts t
  unfold iblk
  rw [View.read_apply]
  show V m c main_arg4 (((cfg0.win 4).blk t).view.emb (ix3 (0 : Fin 1) h o)) = _
  refine congrArg (V m c main_arg4) (funext fun a => Fin.ext ?_)
  match a with
  | ⟨0, _⟩ => show win0_4.index t (0 : Fin 3) * 1 + 1 * 0 = t.val / 2; have := h4.1; omega
  | ⟨1, _⟩ => show win0_4.index t (1 : Fin 3) * 512 + 1 * h.val = h.val; have := h4.2.1; omega
  | ⟨2, _⟩ => show win0_4.index t (2 : Fin 3) * 64 + 1 * o.val = o.val; have := h4.2.2; omega

/-- The hidden bias block at point `t` is pathway `t / 2`'s row of the re-laid bias. -/
theorem iblk3_at' (c : Dev nD) (t : Fin cfg0.N) (u : Fin 1) (h : Fin 512) :
    (iblk m c 3 t : S1x1x512.Idx → EReal) (ix3 (0 : Fin 1) u h) = V m c main_v0 (ix3 (pw t) (0 : Fin 1) h) := by
  obtain ⟨h0, h1, h2, h3, h4, h5, h6⟩ := idx_facts t
  unfold iblk
  rw [View.read_apply]
  show V m c main_v0 (((cfg0.win 3).blk t).view.emb (ix3 (0 : Fin 1) u h)) = _
  refine congrArg (V m c main_v0) (funext fun a => Fin.ext ?_)
  match a with
  | ⟨0, _⟩ => show win0_3.index t (0 : Fin 3) * 1 + 1 * 0 = t.val / 2; have := h3.1; omega
  | ⟨1, _⟩ => show win0_3.index t (1 : Fin 3) * 1 + 1 * u.val = 0; have := u.isLt; have := h3.2.1; omega
  | ⟨2, _⟩ => show win0_3.index t (2 : Fin 3) * 512 + 1 * h.val = h.val; have := h3.2.2; omega

/-- The output bias block at point `t` is pathway `t / 2`'s row of the re-laid bias. -/
theorem iblk5_at' (c : Dev nD) (t : Fin cfg0.N) (u : Fin 1) (o : Fin 64) :
    (iblk m c 5 t : S1x1x64.Idx → EReal) (ix3 (0 : Fin 1) u o) = V m c main_v1 (ix3 (pw t) (0 : Fin 1) o) := by
  obtain ⟨h0, h1, h2, h3, h4, h5, h6⟩ := idx_facts t
  unfold iblk
  rw [View.read_apply]
  show V m c main_v1 (((cfg0.win 5).blk t).view.emb (ix3 (0 : Fin 1) u o)) = _
  refine congrArg (V m c main_v1) (funext fun a => Fin.ext ?_)
  match a with
  | ⟨0, _⟩ => show win0_5.index t (0 : Fin 3) * 1 + 1 * 0 = t.val / 2; have := h5.1; omega
  | ⟨1, _⟩ => show win0_5.index t (1 : Fin 3) * 1 + 1 * u.val = 0; have := u.isLt; have := h5.2.1; omega
  | ⟨2, _⟩ => show win0_5.index t (2 : Fin 3) * 64 + 1 * o.val = o.val; have := h5.2.2; omega

/-! ## The casts the scratch buffers hold -/

/-- The Laplacian block cast to bf16 and squeezed to `[256, 256]`, at `(n, k)`: the block at `(0, n, k)`. -/
theorem pay1_at (x : Vec Ideal S1x256x256 .f32) (n k : Fin 256) : k0_pay1 (F := Ideal) x (ix2 n k) = x (ix3 (0 : Fin 1) n k) := by
  unfold k0_pay1
  rw [shapeCast_self]
  exact shapeCast_1ab_ab_apply x Facts₀.shapeCasts_S1x256x256_S256x256 n k

/-- The hidden weights' block likewise, at `(n, h)`. -/
theorem pay2_at (x : Vec Ideal S1x256x512 .f32) (n : Fin 256) (h : Fin 512) : k0_pay2 (F := Ideal) x (ix2 n h) = x (ix3 (0 : Fin 1) n h) := by
  unfold k0_pay2
  rw [shapeCast_self]
  exact shapeCast_1ab_ab_apply x Facts₀.shapeCasts_S1x256x512_S256x512 n h

/-- The output weights' block likewise, at `(h, o)`. -/
theorem pay3_at (x : Vec Ideal S1x512x64 .f32) (h : Fin 512) (o : Fin 64) : k0_pay3 (F := Ideal) x (ix2 h o) = x (ix3 (0 : Fin 1) h o) := by
  unfold k0_pay3
  rw [shapeCast_self]
  exact shapeCast_1ab_ab_apply x Facts₀.shapeCasts_S1x512x64_S512x64 h o

/-- Pathway `p`'s Laplacian as a `[256, 256]` matrix, -/
def lplsOf (c : Dev nD) (p : Fin 64) : Vec Ideal S256x256 .bf16 := fun y => V m c main_arg0 (ix3 p (y 0) (y 1))
/-- its hidden weights as a `[256, 512]` matrix, -/
def w1Of (c : Dev nD) (p : Fin 64) : Vec Ideal S256x512 .bf16 := fun y => V m c main_arg2 (ix3 p (y 0) (y 1))
/-- its output weights as a `[512, 64]` matrix. -/
def w2Of (c : Dev nD) (p : Fin 64) : Vec Ideal S512x64 .bf16 := fun y => V m c main_arg4 (ix3 p (y 0) (y 1))

/-- The cast of point `t`'s Laplacian block is pathway `t / 2`'s Laplacian. -/
theorem pay1_iblk (c : Dev nD) (t : Fin cfg0.N) : k0_pay1 (F := Ideal) (iblk m c 0 t) = lplsOf m c (pw t) := by
  funext y
  obtain ⟨n, k, rfl⟩ : ∃ (n : Fin 256) (k : Fin 256), y = ix2 n k := ⟨y 0, y 1, eq_ix2 y⟩
  exact (pay1_at (iblk m c 0 t) n k).trans (iblk0_at m c t n k)

theorem pay2_iblk (c : Dev nD) (t : Fin cfg0.N) : k0_pay2 (F := Ideal) (iblk m c 2 t) = w1Of m c (pw t) := by
  funext y
  obtain ⟨n, h, rfl⟩ : ∃ (n : Fin 256) (h : Fin 512), y = ix2 n h := ⟨y 0, y 1, eq_ix2 y⟩
  exact (pay2_at (iblk m c 2 t) n h).trans (iblk2_at m c t n h)

theorem pay3_iblk (c : Dev nD) (t : Fin cfg0.N) : k0_pay3 (F := Ideal) (iblk m c 4 t) = w2Of m c (pw t) := by
  funext y
  obtain ⟨h, o, rfl⟩ : ∃ (h : Fin 512) (o : Fin 64), y = ix2 h o := ⟨y 0, y 1, eq_ix2 y⟩
  exact (pay3_at (iblk m c 4 t) h o).trans (iblk4_at m c t h o)

/-! ## What every point leaves -/

/-- The output block of point `t`: the payload of pathway `t / 2`'s matrices and the point's expression and bias blocks. -/
def outBlock (c : Dev nD) (t : Fin cfg0.N) : Vec Ideal S1x1024x128 .f32 :=
  k0_pay4 (F := Ideal) (lplsOf m c (pw t)) (iblk m c 1 t) (w1Of m c (pw t)) (iblk m c 3 t) (w2Of m c (pw t)) (iblk m c 5 t)

/-- After ANY point the three scratch buffers hold that point's pathway's matrices and the output's staging buffer the
    point's output block: by induction on the point — an even point stores the scratch from its own blocks, an odd point
    keeps what the point before left, and the point before is of the same pathway. -/
theorem outsAt_eq (c : Dev nD) : ∀ (n : ℕ) (h : n < cfg0.N),
    outsAt0 m c n h = (outBlock m c ⟨n, h⟩, lplsOf m c (pw ⟨n, h⟩), w1Of m c (pw ⟨n, h⟩), w2Of m c (pw ⟨n, h⟩))
  | 0, h => by
    rw [outsAt0_A m c ⟨0, h⟩ rfl, Pieces.out_A, Pieces.sout_A_0, Pieces.sout_A_1, Pieces.sout_A_2,
      pay1_iblk, pay2_iblk, pay3_iblk]
    rfl
  | n + 1, h => by
    by_cases h0 : (n + 1) % 2 = 0
    · rw [outsAt0_A m c ⟨n + 1, h⟩ h0, Pieces.out_A, Pieces.sout_A_0, Pieces.sout_A_1, Pieces.sout_A_2,
        pay1_iblk, pay2_iblk, pay3_iblk]
      rfl
    · have hp : pw ⟨n, Nat.lt_of_succ_lt h⟩ = pw ⟨n + 1, h⟩ := Fin.ext (by show n / 2 = (n + 1) / 2; omega)
      rw [outsAt0_B m c ⟨n + 1, h⟩ h0, Pieces.out_B]
      unfold sout0_B_0 sout0_B_1 sout0_B_2
      show (k0_pay4 (outsAt0 m c n _).2.1 _ (outsAt0 m c n _).2.2.1 _ (outsAt0 m c n _).2.2.2 _, (outsAt0 m c n _).2.1, (outsAt0 m c n _).2.2.1, (outsAt0 m c n _).2.2.2) = _
      rw [outsAt_eq c n (Nat.lt_of_succ_lt h)]
      dsimp only
      rw [hp]
      rfl

/-! ## The result array of the call, in the 128-wide layout -/

/-- The hidden bias and the output bias as launched. -/
abbrev b1Arr (c : Dev nD) : Gcn.SB1.Idx → EReal := m ((c : Thread nD τ).loc main_arg3)
abbrev b2Arr (c : Dev nD) : Gcn.SB2.Idx → EReal := m ((c : Thread nD τ).loc main_arg5)

/-- The network's result, in the kernel's layout, of the arrays as the region finds them. -/
def wide (c : Dev nD) : Buf (Elt Ideal) ((c : Thread nD τ).loc main_v2) :=
  Gcn.result2 (V m c main_arg0) (V m c main_arg1) (V m c main_arg2) (b1Arr m c) (V m c main_arg4) (b2Arr m c)

/-- Point `t`'s output block at `(0, r, l)` is the network at pathway `t / 2`, the cell and unit the position holds. -/
theorem outBlock_at (c : Dev nD) (t : Fin cfg0.N) (r : Fin 1024) (l : Fin 128) :
    outBlock m c t (ix3 (0 : Fin 1) r l)
      = Gcn.net (V m c main_arg0) (V m c main_arg1) (V m c main_arg2) (b1Arr m c) (V m c main_arg4) (b2Arr m c) (pw t)
          (cellAt t ⟨2 * r.val + l.val / 64, by have := r.isLt; have := l.isLt; omega⟩) ⟨l.val % 64, Nat.mod_lt _ (by decide)⟩ := by
  unfold outBlock
  refine (PayloadAt.pay4_at _ _ _ _ _ _ r l).trans ?_
  refine Gcn.net_of_blocks (V m c main_arg0) (V m c main_arg1) (V m c main_arg2) (b1Arr m c) (V m c main_arg4) (b2Arr m c)
    (pw t) (ft t) _ _ _ rfl _ _ _ _ _ _ (fun n k => rfl) (fun k => iblk1_at m c t k _) (fun n h => rfl) (fun h => ?_) (fun h o => rfl) (fun o => ?_)
  · refine (iblk3_at' m c t (0 : Fin 1) h).trans ?_
    rw [V_main_v0]
    exact shapeCast_ab_a1b_apply _ Facts₀.shapeCasts_S64x512_S64x1x512 (pw t) (0 : Fin 1) h
  · refine (iblk5_at' m c t (0 : Fin 1) o).trans ?_
    rw [V_main_v1]
    exact shapeCast_ab_a1b_apply _ Facts₀.shapeCasts_S64x64_S64x1x64 (pw t) (0 : Fin 1) o

/-- WHAT POINT `t` WRITES BACK is block `t` of the wide result. -/
theorem flushed_eq (c : Dev nD) (t : Fin cfg0.N) :
    (dats m 0 c).flushed 6 t = ((cfg0.win 6).blk t).view.read (Elt Ideal) (wide m c) := by
  show (cfg0.win 6).cut (grid0.coords t) ((dats m 0 c).after 6 t) = _
  rw [after0_6, outsAt_eq]
  obtain ⟨h0, h1, h2, h3, h4, h5, h6⟩ := idx_facts t
  funext y
  obtain ⟨u, r, l, rfl⟩ : ∃ (u : Fin 1) (r : Fin 1024) (l : Fin 128), y = ix3 u r l := ⟨y 0, y 1, y 2, eq_ix3 y⟩
  obtain rfl : u = 0 := Subsingleton.elim _ _
  rw [View.read_apply]
  show outBlock m c t (ix3 (0 : Fin 1) r l) = wide m c (((cfg0.win 6).blk t).view.emb (ix3 (0 : Fin 1) r l))
  have e0 : ((cfg0.win 6).blk t).view.emb (ix3 (0 : Fin 1) r l)
      = ix3 (pw t) (⟨1024 * (t.val % 2) + r.val, by have := r.isLt; omega⟩ : Fin 2048) l := funext fun a => Fin.ext (by
    match a with
    | ⟨0, _⟩ => show win0_6.index t (0 : Fin 3) * 1 + 1 * 0 = t.val / 2; have := h6.1; omega
    | ⟨1, _⟩ => show win0_6.index t (1 : Fin 3) * 1024 + 1 * r.val = 1024 * (t.val % 2) + r.val; have := h6.2.1; omega
    | ⟨2, _⟩ => show win0_6.index t (2 : Fin 3) * 128 + 1 * l.val = l.val; have := h6.2.2; omega)
  rw [e0, outBlock_at]
  unfold wide Gcn.result2
  show Gcn.net _ _ _ _ _ _ (pw t) _ _ = Gcn.net _ _ _ _ _ _ (pw t) (Gcn.cellOf _ l) (Gcn.unitOf l)
  exact congrArg₂ (Gcn.net _ _ _ _ _ _ (pw t)) (Fin.ext (by
    show 2048 * (t.val % 2) + (2 * r.val + l.val / 64) = 2 * (1024 * (t.val % 2) + r.val) + l.val / 64
    omega)) rfl

/-- An index of the array is in point `t`'s block iff each coordinate is in the block's range on its axis. -/
theorem mem_blk (t : Fin cfg0.N) (i : S64x2048x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v2).slice (win0_6.rect t)).set ↔ _
  rw [View.set_slice_whole, Rect.mem_set_unit]
  exact Iff.rfl

/-- Row `R` of pathway `p`'s slab is in the block of point `2p + R / 1024`: the blocks cover the array. -/
theorem cover (i : S64x2048x128.Idx) : ∃ t : Fin cfg0.N, (cfg0.win 6).flush t = true ∧ i ∈ ((cfg0.win 6).blk t).view.set := by
  have hi0 : (i 0).val < 64 := (i 0).isLt
  have hi1 : (i 1).val < 2048 := (i 1).isLt
  have hi2 : (i 2).val < 128 := (i 2).isLt
  have hN : cfg0.N = 128 := N_0
  have ht : 2 * (i 0).val + (i 1).val / 1024 < cfg0.N := by omega
  refine ⟨⟨2 * (i 0).val + (i 1).val / 1024, ht⟩, flush0_6 _, ?_⟩
  rw [mem_blk]
  obtain ⟨-, -, -, -, -, -, h6⟩ := idx_facts ⟨2 * (i 0).val + (i 1).val / 1024, ht⟩
  have e0 : win0_6.index ⟨2 * (i 0).val + (i 1).val / 1024, ht⟩ (0 : Fin 3) = (2 * (i 0).val + (i 1).val / 1024) / 2 := h6.1
  have e1 : win0_6.index ⟨2 * (i 0).val + (i 1).val / 1024, ht⟩ (1 : Fin 3) = (2 * (i 0).val + (i 1).val / 1024) % 2 := h6.2.1
  have e2 : win0_6.index ⟨2 * (i 0).val + (i 1).val / 1024, ht⟩ (2 : Fin 3) = 0 := h6.2.2
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1024 ≤ (i 1).val ∧ (i 1).val < win0_6.index _ (1 : Fin 3) * 1024 + 1024; omega
  | ⟨2, _⟩ => show win0_6.index _ (2 : Fin 3) * 128 ≤ (i 2).val ∧ (i 2).val < win0_6.index _ (2 : Fin 3) * 128 + 128; omega

/-- So the call's result array ends holding the wide result. -/
theorem final (c : Dev nD) : (dats m 0 c).arrAt 6 cfg0.N = wide m c :=
  (dats m 0 c).arrAt_eq_of_cover 6 (wide m c) (fun t _ => flushed_eq m c t) (cover)

/-! ## The host reshape after the call -/

/-- The wide result re-laid as `[64, 4096, 64]` is the result: `(p, f, o)` and `(p, f / 2, 64·(f % 2) + o)` are one row-major
    position, and that wide position holds cell `f`, unit `o`. -/
theorem relay_result (L : Gcn.SL.Idx → EReal) (E : Gcn.SE.Idx → EReal) (W1 : Gcn.SW1.Idx → EReal) (B1 : Gcn.SB1.Idx → EReal)
    (W2 : Gcn.SW2.Idx → EReal) (B2 : Gcn.SB2.Idx → EReal) (h : S64x2048x128.ShapeCasts S64x4096x64) :
    shapeCast S64x4096x64 (Gcn.result2 L E W1 B1 W2 B2) h = Gcn.result L E W1 B1 W2 B2 := by
  funext i
  obtain ⟨p, f, o, rfl⟩ : ∃ (p : Fin 64) (f : Fin 4096) (o : Fin 64), i = ix3 p f o := ⟨i 0, i 1, i 2, eq_ix3 i⟩
  have hf := f.isLt
  have ho := o.isLt
  refine (shapeCast_apply _ h (ix3 p f o) (ix3 p (⟨f.val / 2, by omega⟩ : Fin 2048) (⟨64 * (f.val % 2) + o.val, by omega⟩ : Fin 128)) ?_).trans ?_
  · rw [Shape.rowMajor_val_three, Shape.rowMajor_val_three]
    show (p.val * 2048 + f.val / 2) * 128 + (64 * (f.val % 2) + o.val) = (p.val * 4096 + f.val) * 64 + o.val
    omega
  · unfold Gcn.result2 Gcn.result
    show Gcn.net _ _ _ _ _ _ p (Gcn.cellOf _ _) (Gcn.unitOf _) = Gcn.net _ _ _ _ _ _ p f o
    exact congrArg₂ (Gcn.net _ _ _ _ _ _ p)
      (Fin.ext (by show 2 * (f.val / 2) + (64 * (f.val % 2) + o.val) / 64 = f.val; omega))
      (Fin.ext (by show (64 * (f.val % 2) + o.val) % 64 = o.val; omega))

/-- What the host tail leaves in the program's result buffer: the call's result array re-laid. -/
theorem tail_eq (c : Dev nD) :
    Pipeline.afterTail₀ cfgs (dats m) 0 (V0 m) [hostOps1] c main_v3
      = shapeCast S64x4096x64 (wide m c) Facts₀.shapeCasts_S64x2048x128_S64x4096x64 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2) = wide m c :=
    (Pipeline.withArrays_arr spec0 launch0.win.arr_inj c _ _ 6).trans (final m c)
  rw [e]
  rfl

/-! ## The run, read -/

/-- The program's result as a function of its arguments' launch contents. -/
def value (c : Dev nD) : Buf (Elt Ideal) ((c : Thread nD τ).loc main_v3) :=
  Gcn.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The host tail's result is the network of the launch contents. -/
theorem tail_value (c : Dev nD) : Pipeline.afterTail₀ cfgs (dats m) 0 (V0 m) [hostOps1] c main_v3 = value m c := by
  rw [tail_eq]
  unfold wide b1Arr b2Arr value
  rw [relay_result, V_main_arg0, V_main_arg1, V_main_arg2, V_main_arg4]

/-- Every weakly fair execution of the idealized kernel program terminates with the result buffer at the network of
    the arguments' launch contents and the arguments unchanged. -/
theorem run : θ_run defs (onTc (τ := τ) (main (F := Ideal))) ⟨m, fun _ => 0, ρ⟩ fun r => ∀ c : Dev nD,
      r.2.mem ((c : Thread nD τ).loc main_v3) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v3 (Pipeline.mem_restRefs_of main_v3 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference computes the network.

  Its thirteen host operations, read one at a time at explicit coordinates: the batched product `pnm,pmf->pnf` is the
  aggregation, its transpose feeds the batched product with `W₁`, the bias enters through two broadcasts, the rectifier is a
  maximum with the broadcast zero word, and the last batched product and bias give `Gcn.net`.
-/
import proofs.«112206_j8031588843578_2_alg».proof.Proof.Gen.ReferenceIdeal.Read
import proofs.«112206_j8031588843578_2_alg».proof.Proof.Spec

noncomputable section

namespace Cert.ReferenceIdeal.RefValue

open Cert.ReferenceIdeal Cert.ReferenceIdeal.Read Idealize.ShloMosaic Idealize.ShloMosaic.ValueIdx

variable (x0 : (⟨S64x256x256, .f32⟩ : BufTy).Contents (Elt Ideal)) (x1 : (⟨S64x256x4096, .f32⟩ : BufTy).Contents (Elt Ideal)) (x2 : (⟨S64x256x512, .f32⟩ : BufTy).Contents (Elt Ideal)) (x3 : (⟨S64x512, .f32⟩ : BufTy).Contents (Elt Ideal)) (x4 : (⟨S64x512x64, .f32⟩ : BufTy).Contents (Elt Ideal)) (x5 : (⟨S64x64, .f32⟩ : BufTy).Contents (Elt Ideal))

/-- The aggregation at `(p, n, f)`. -/
theorem v0_at (p : Fin 64) (n : Fin 256) (f : Fin 4096) :
    val_main_v0 (F := Ideal) x0 x1 (ix3 p n f) = Gcn.agg x0 x1 p n f := by
  rw [val_main_v0_apply]
  unfold Gcn.agg
  refine Finset.sum_congr rfl fun k _ => ?_
  rw [show lidx_main_v0 (ix3 p n f) k = ix3 p n k from funext fun a => by match a with | ⟨0, _⟩ => rfl | ⟨1, _⟩ => rfl | ⟨2, _⟩ => rfl,
    show ridx_main_v0 (ix3 p n f) k = ix3 p k f from funext fun a => by match a with | ⟨0, _⟩ => rfl | ⟨1, _⟩ => rfl | ⟨2, _⟩ => rfl]

/-- Its transpose at `(p, f, n)`. -/
theorem v1_at (p : Fin 64) (f : Fin 4096) (n : Fin 256) :
    val_main_v1 (F := Ideal) x0 x1 (ix3 p f n) = Gcn.agg x0 x1 p n f := by
  rw [val_main_v1_apply, show idx_main_v1 (ix3 p f n) = ix3 p n f from funext fun a => by match a with | ⟨0, _⟩ => rfl | ⟨1, _⟩ => rfl | ⟨2, _⟩ => rfl, v0_at]

/-- The hidden layer before the bias at `(p, f, h)`. -/
theorem v2_at (p : Fin 64) (f : Fin 4096) (h : Fin 512) :
    val_main_v2 (F := Ideal) x0 x1 x2 (ix3 p f h) = ∑ n : Fin 256, Gcn.agg x0 x1 p n f * x2 (ix3 p n h) := by
  rw [val_main_v2_apply]
  refine Finset.sum_congr rfl fun k _ => ?_
  rw [show lidx_main_v2 (ix3 p f h) k = ix3 p f k from funext fun a => by match a with | ⟨0, _⟩ => rfl | ⟨1, _⟩ => rfl | ⟨2, _⟩ => rfl,
    show ridx_main_v2 (ix3 p f h) k = ix3 p k h from funext fun a => by match a with | ⟨0, _⟩ => rfl | ⟨1, _⟩ => rfl | ⟨2, _⟩ => rfl, v1_at]

/-- The hidden bias broadcast over the cells at `(p, f, h)`. -/
theorem v4_at (p : Fin 64) (f : Fin 4096) (h : Fin 512) :
    val_main_v4 (F := Ideal) x3 (ix3 p f h) = x3 (ix2 p h) := by
  rw [val_main_v4_apply, val_main_v3_apply]
  exact congrArg x3 (funext fun a => by match a with | ⟨0, _⟩ => rfl | ⟨1, _⟩ => rfl)

/-- The rectified hidden layer at `(p, f, h)`. -/
theorem v6_at (p : Fin 64) (f : Fin 4096) (h : Fin 512) :
    val_main_v6 (F := Ideal) x0 x1 x2 x3 (ix3 p f h) = Gcn.hid x0 x1 x2 x3 p f h := by
  rw [val_main_v6_apply, val_main_v5_apply, v2_at, v4_at, val_main_call0_v0_apply, val_main_call0_cst_apply]
  rfl

/-- The output layer before the bias at `(p, f, o)`. -/
theorem v7_at (p : Fin 64) (f : Fin 4096) (o : Fin 64) :
    val_main_v7 (F := Ideal) x0 x1 x2 x3 x4 (ix3 p f o) = ∑ h : Fin 512, Gcn.hid x0 x1 x2 x3 p f h * x4 (ix3 p h o) := by
  rw [val_main_v7_apply]
  refine Finset.sum_congr rfl fun k _ => ?_
  rw [show lidx_main_v7 (ix3 p f o) k = ix3 p f k from funext fun a => by match a with | ⟨0, _⟩ => rfl | ⟨1, _⟩ => rfl | ⟨2, _⟩ => rfl,
    show ridx_main_v7 (ix3 p f o) k = ix3 p k o from funext fun a => by match a with | ⟨0, _⟩ => rfl | ⟨1, _⟩ => rfl | ⟨2, _⟩ => rfl, v6_at]

/-- The output bias broadcast over the cells at `(p, f, o)`. -/
theorem v9_at (p : Fin 64) (f : Fin 4096) (o : Fin 64) :
    val_main_v9 (F := Ideal) x5 (ix3 p f o) = x5 (ix2 p o) := by
  rw [val_main_v9_apply, val_main_v8_apply]
  exact congrArg x5 (funext fun a => by match a with | ⟨0, _⟩ => rfl | ⟨1, _⟩ => rfl)

/-- The reference's last stage is the network's result array. -/
theorem reference_eq : val_main_v10 (F := Ideal) x0 x1 x2 x3 x4 x5 = Gcn.result x0 x1 x2 x3 x4 x5 := by
  funext i
  obtain ⟨p, f, o, rfl⟩ : ∃ (p : Fin 64) (f : Fin 4096) (o : Fin 64), i = ix3 p f o := ⟨i 0, i 1, i 2, eq_ix3 i⟩
  rw [val_main_v10_apply, v7_at, v9_at]
  rfl

end Cert.ReferenceIdeal.RefValue

end
-- ==== Proof.lean ====
/-
  The certificate of the pathway network kernel against its jnp reference.

  Both programs compute, for pathway `p`, cell `f` and output unit `o`,

      ∑ h, max (∑ n, (∑ m, L (p,n,m) · E (p,m,f)) · W₁ (p,n,h) + b₁ (p,h)) 0 · W₂ (p,h,o) + b₂ (p,o)

  on the extended reals (`Gcn.net`, Proof/Spec.lean). The kernel tiles the cells in two F-tiles per pathway, keeps the
  pathway's Laplacian and weights, cast to bf16, in scratch buffers written at the first tile and reused at the second,
  and stores two cells per 128-wide row, which the host re-lays afterwards; at the ideal values the casts are the identity
  and the re-laying keeps row-major positions, so its result array is that function of the arguments
  (Proof/KernelValue.lean). The reference's thirteen host operations compose to the same function
  (Proof/RefValue.lean). No finiteness of the inputs is used: the two sides are the same sums of the same products.
  The ideal pass rewrote nothing, so `preserves` is `True`.
-/
import proofs.«112206_j8031588843578_2_alg».proof.Defs
import proofs.«112206_j8031588843578_2_alg».proof.Proof.Gen.Kernel
import proofs.«112206_j8031588843578_2_alg».proof.Proof.Gen.Kernel.Frame
import proofs.«112206_j8031588843578_2_alg».proof.Proof.Gen.KernelIdeal
import proofs.«112206_j8031588843578_2_alg».proof.Proof.Gen.KernelIdeal.Frame
import proofs.«112206_j8031588843578_2_alg».proof.Proof.Gen.ReferenceIdeal
import proofs.«112206_j8031588843578_2_alg».proof.Proof.Gen.ReferenceIdeal.Run
import proofs.«112206_j8031588843578_2_alg».proof.Proof.Gen.ReferenceIdeal.Read
import proofs.«112206_j8031588843578_2_alg».proof.Proof.Gen.Pre_finite_inputs
import proofs.«112206_j8031588843578_2_alg».proof.Proof.Spec
import proofs.«112206_j8031588843578_2_alg».proof.Proof.KernelValue
import proofs.«112206_j8031588843578_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of the arguments in their
    result buffers. -/
theorem algebraic : Cert.algebraic_KernelIdeal_ReferenceIdeal := by
  intro m ρ m' ρ' _ hagree
  refine ⟨fun c => Cert.KernelIdeal.KValue.value m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
